-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32000 : Shape := ⟨2, ![2048, 32000]⟩
abbrev S16384 : Shape := ⟨1, ![16384]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel

variable [Facts]

def fn {F : FTy → Type} [FloatOps F] (main_arg0 : FVec F S2048x32000 .f32) (main_arg1 : IVec S16384 32) (main_arg2 : IVec S16384 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  main_v3
-- ==== Kernel.lean ====
abbrev S2048x32000 : Shape := ⟨2, ![2048, 32000]⟩
abbrev S16384 : Shape := ⟨1, ![16384]⟩
abbrev S2048x1 : Shape := ⟨2, ![2048, 1]⟩
abbrev S512x6400 : Shape := ⟨2, ![512, 6400]⟩
abbrev S512x1 : Shape := ⟨2, ![512, 1]⟩
abbrev S512x3200 : Shape := ⟨2, ![512, 3200]⟩
abbrev S512 : Shape := ⟨1, ![512]⟩
abbrev S2048 : Shape := ⟨1, ![2048]⟩
abbrev S_ : Shape := ⟨0, ![]⟩
abbrev S16384x1 : Shape := ⟨2, ![16384, 1]⟩
abbrev S16384x2 : Shape := ⟨2, ![16384, 2]⟩

abbrev nBuf : Space → Nat
  | .hbm => 37
  | .vmem => 6
  | .smem => 0
  | _ => 0

abbrev bufTy : (tb : Table) → Fin (tcTables nBuf tb) → BufTy
  | .hbm, ⟨0, _⟩ => ⟨S2048x32000, .f32⟩
  | .hbm, ⟨1, _⟩ => ⟨S16384, .i32⟩
  | .hbm, ⟨2, _⟩ => ⟨S16384, .i32⟩
  | .hbm, ⟨3, _⟩ => ⟨S2048x1, .f32⟩
  | .hbm, ⟨4, _⟩ => ⟨S2048, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x3200_0_0 : ∀ a, (![0, 0] : Fin 2 → Nat) a + S512x3200.size a ≤ S512x6400.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  inb_S512x6400_S512x3200_0_3200 : ∀ a, (![0, 3200] : Fin 2 → Nat) a + S512x3200.size a ≤ S512x6400.size a
  shapeCasts_S2048x1_S2048 : S2048x1.ShapeCasts S2048
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  h_S_ : 0 < S_.numel
  gather_S2048x32000_S16384x2_S16384_n_01_n_n_01_1_11_wf : GatherDims.WF S2048x32000 S16384x2 S16384 [] [0, 1] [] [0, 1] [] 1 ![1, 1]
  gather_S2048_S16384x1_S16384_n_0_n_n_0_1_1_wf : GatherDims.WF S2048 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S2048x32000.size a
  hwx0_0 : ∀ i : grid0.Coords, EltTy.bits .f32 = 32 ∨ (Rect.block (s := S2048x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)

variable [Facts₀]

def gather_S2048x32000_S16384x2_S16384_n_01_n_n_01_1_11 : GatherDims S2048x32000 S16384x2 S16384 where
  offsetDims := []
  collapsedSliceDims := [0, 1]
  operandBatchingDims := []
  startIndicesBatchingDims := []
  startIndexMap := [0, 1]
  indexVectorDim := 1
  sliceSizes := ![1, 1]
  wf := gather_S2048x32000_S16384x2_S16384_n_01_n_n_01_1_11_wf
def gather_S2048_S16384x1_S16384_n_0_n_n_0_1_1 : GatherDims S2048 S16384x1 S16384 where
  offsetDims := []
  collapsedSliceDims := [0]
  operandBatchingDims := []
  startIndicesBatchingDims := []
  startIndexMap := [0]
  indexVectorDim := 1
  sliceSizes := ![1]
  wf := gather_S2048_S16384x1_S16384_n_0_n_n_0_1_1_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x32000 : Shape := ⟨2, ![2048, 32000]⟩
abbrev S16384 : Shape := ⟨1, ![16384]⟩
abbrev S_ : Shape := ⟨0, ![]⟩
abbrev S2048 : Shape := ⟨1, ![2048]⟩
abbrev S2048x1 : Shape := ⟨2, ![2048, 1]⟩
abbrev S16384x1 : Shape := ⟨2, ![16384, 1]⟩
abbrev S16384x2 : Shape := ⟨2, ![16384, 2]⟩

abbrev nBuf : Space → Nat
  | .hbm => 41
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S16384, .i32⟩
  | .hbm, ⟨2, _⟩ => ⟨S16384, .i32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S2048x32000, .f32⟩
  | .hbm, ⟨10, _⟩ => ⟨S2048x32000, .f32⟩
  | .hbm, ⟨11, _⟩ => ⟨S2048x32000, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .f32⟩
  | .hbm, ⟨16, _⟩ => ⟨S2048x32000, .f32⟩
  | .hbm, ⟨17, _⟩ => ⟨S2048x32000, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1, .i32⟩
  | .hbm, ⟨34, _⟩ => ⟨S16384x2, .i32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  gather_S2048x32000_S16384x2_S16384_n_01_n_n_01_1_11_wf : GatherDims.WF S2048x32000 S16384x2 S16384 [] [0, 1] [] [0, 1] [] 1 ![1, 1]

variable [Facts₀]

def gather_S2048x32000_S16384x2_S16384_n_01_n_n_01_1_11 : GatherDims S2048x32000 S16384x2 S16384 where
  offsetDims := []
  collapsedSliceDims := [0, 1]
  operandBatchingDims := []
  startIndicesBatchingDims := []
  startIndexMap := [0, 1]
  indexVectorDim := 1
  sliceSizes := ![1, 1]
  wf := gather_S2048x32000_S16384x2_S16384_n_01_n_n_01_1_11_wf

class Facts : Prop extends Facts₀ where

variable [Facts]
-- ==== Proof.LibRealEntries.lean ====
/-
  Real-valued entries on the extended reals.

  At the exact instance a float is an extended real, and the laws that join two arrangements of one computation
  (distributing a factor over a difference, regrouping a mixed sum) hold for real numbers but fail at the infinities.
  This file says when an extended real IS a real number (`IsReal`), that the property is kept by sums, differences,
  products, maxima, choices, finite sums, division by a nonzero real and the reciprocal square root of a positive real or
  of anything at least one, that a finite sum of reals is the real sum, and the one algebraic identity of batch
  normalisation: scaling then shifting by a precomputed pair equals centring, scaling and shifting.
-/
import Idealize.ShloMosaic.PureOps.Ideal

namespace RealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- An extended real that is neither infinity is a real number. -/
theorem isReal_of_ne {x : EReal} (ht : x ≠ ⊤) (hb : x ≠ ⊥) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {p : Prop} [Decidable p] {x y : EReal} (hx : IsReal x) (hy : IsReal y) : IsReal (if p then x else y) := by
  split <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The extended-real sum of real numbers is their real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a nonzero real keeps a real number real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a real number. -/
theorem isReal_rsqrt_of_pos {r : ℝ} (h : 0 < r) : IsReal (Ideal.rsqrt (r : EReal)) := by
  rw [Ideal.rsqrt_coe, if_neg (not_lt.mpr h.le), if_neg h.ne']; exact isReal_coe _

/-- The reciprocal square root of anything at least one — plus infinity included — is a real number. -/
theorem isReal_rsqrt_of_one_le {x : EReal} (h : 1 ≤ x) : IsReal (Ideal.rsqrt x) := by
  induction x using EReal.rec with
  | bot => exact absurd (le_bot_iff.mp h) (EReal.coe_ne_bot 1)
  | top => rw [Ideal.rsqrt_top]; exact isReal_zero
  | coe r =>
    have hr : (1 : ℝ) ≤ r := by exact_mod_cast h
    exact isReal_rsqrt_of_pos (by linarith)

/-- Batch normalisation's two arrangements agree on real numbers: with `s = g·r`, `a·s + (b − m·s) = ((a − m)·r)·g + b`. -/
theorem bn_affine (a m r g b : ℝ) :
    (a : EReal) * ((g : EReal) * (r : EReal)) + ((b : EReal) - (m : EReal) * ((g : EReal) * (r : EReal)))
      = (((a : EReal) - (m : EReal)) * (r : EReal)) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1; ring

end RealEntries
-- ==== Proof.Finite.lean ====
/-
  The precondition, read: every logit is a real number.

  The precondition says that the conjunction, over every entry of the logits, of `|x| < +∞` is true. A conjunction
  that is true has every conjunct true, and an extended real whose absolute value `max x (−x)` lies below `+∞` is
  neither infinity, hence a real number.
-/
import proofs.«127063_j40424232190041_2_alg».proof.Defs
import proofs.«127063_j40424232190041_2_alg».proof.Proof.Gen.Pre_finite_inputs
import proofs.«127063_j40424232190041_2_alg».proof.Proof.LibRealEntries
import Idealize.ShloMosaic.Lib.ReduceAll
import Idealize.ShloMosaic.Lib.ValueIdx
import Idealize.ShloMosaic.Lib.Pipeline.Value
import Idealize.ShloMosaic.PureOps.Ideal.Laws

namespace Cert.FiniteInputs

open Idealize.ShloMosaic RealEntries

instance : Subsingleton Cert.Pre_finite_inputs.S_.Idx := ⟨fun a b => funext fun d => d.elim0⟩

/-- A strict comparison that answers "true" is the strict order. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- The f32 pattern of +∞ denotes the top extended real. -/
theorem ofBits_pos_inf : Ideal.ofBits .f32 0x7F800000#32 = (⊤ : EReal) := by
  simp [Ideal.ofBits, Ideal.ieee]

/-- An extended real whose absolute value lies below `+∞` is a real number. -/
theorem isReal_of_abs_lt_top {x : EReal} (h : max x (-x) < ⊤) : IsReal x := by
  refine isReal_of_ne ?_ ?_
  · rintro rfl; simp at h
  · rintro rfl; simp at h

/-- Under the precondition every logit is a real number. -/
theorem entries_real [Cert.Pre_finite_inputs.Facts] (x : FVec Ideal Cert.Pre_finite_inputs.S2048x32000 .f32)
    (a1 a2 : IVec Cert.Pre_finite_inputs.S16384 32)
    (h : Cert.Pre_finite_inputs.fn (F := Ideal) x a1 a2 = fun _ => 1#1) (i : Cert.Pre_finite_inputs.S2048x32000.Idx) :
    IsReal (x i) := by
  have h0 := congrFun h ValueIdx.ix0
  dsimp only [Cert.Pre_finite_inputs.fn] at h0
  have hi := Host.reduce_andi_all _ _ _ _ _ h0 i
  change Ideal.cmp .olt (max (x i) (-(x i)))
    (broadcastInDim Cert.Pre_finite_inputs.S2048x32000 ![] Cert.Pre_finite_inputs.Facts.bcast_S_S2048x32000
      (constant (F := Ideal) Cert.Pre_finite_inputs.S_ .f32 0x7F800000#32) i) = 1#1 at hi
  rw [broadcastInDim_apply _ _ _ i (fun a => a.elim0) (fun a => a.elim0)] at hi
  have hlt := lt_of_cmp_olt hi
  change max (x i) (-(x i)) < Ideal.ofBits .f32 0x7F800000#32 at hlt
  rw [ofBits_pos_inf] at hlt
  exact isReal_of_abs_lt_top hlt

end Cert.FiniteInputs
-- ==== Proof.Pieces.lean ====
/-
  What one grid point leaves in the three buffers the kernel body writes, as values.

  The body sees a [512, 6400] block of the logits, cuts it into its two column halves, and on each half performs one
  step of the streaming log-sum-exp: from a running maximum `M` and a running sum `L` (both [512, 1] columns) it forms
  `M' = max M (rowmax h)` and `L' = L · exp (M − M') + rowsum (exp (h − M'))`. At the first point of a row block the
  two columns start from a finite constant and from zero; at the later points they start from what the point before
  left. After both steps the output column is `M'' + log L''`.
-/
import proofs.«127063_j40424232190041_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Columns 0 … 3199 of a block. -/
def lo (x : Vec F S512x6400 .f32) : Vec F S512x3200 .f32 :=
  View.ld x (Rect.unit (s := S512x6400) ![0, 0] S512x3200.size Facts₀.inb_S512x6400_S512x3200_0_0)

/-- Columns 3200 … 6399 of a block. -/
def hi (x : Vec F S512x6400 .f32) : Vec F S512x3200 .f32 :=
  View.ld x (Rect.unit (s := S512x6400) ![0, 3200] S512x3200.size Facts₀.inb_S512x6400_S512x3200_0_3200)

/-- The running maximum after one step on the half block `h`. -/
def newM (h : Vec F S512x3200 .f32) (M : Vec F S512x1 .f32) : Vec F S512x1 .f32 := k0_pay6 h M

/-- The running sum after one step on the half block `h`: rescaled to the new maximum, plus the half's own terms. -/
def newL (h : Vec F S512x3200 .f32) (M L : Vec F S512x1 .f32) : Vec F S512x1 .f32 := k0_pay7 h M M L

/-- Both steps of a point, on the maximum. -/
def pointM (x : Vec F S512x6400 .f32) (M : Vec F S512x1 .f32) : Vec F S512x1 .f32 :=
  newM (hi x) (newM (lo x) M)

/-- Both steps of a point, on the sum. -/
def pointL (x : Vec F S512x6400 .f32) (M L : Vec F S512x1 .f32) : Vec F S512x1 .f32 :=
  newL (hi x) (newM (lo x) M) (newL (lo x) M L)

/-- The output column of a point: the maximum plus the logarithm of the sum. -/
def pointOut (x : Vec F S512x6400 .f32) (M L : Vec F S512x1 .f32) : Vec F S512x1 .f32 :=
  k0_pay3 (pointM x M) (pointL x M L)

/-! The second half's payloads are the first half's: the same operations on the other half block. -/

theorem pay2_eq (v : Vec F S512x1 .f32) : k0_pay2 v = v := shapeCast_self _ _
theorem pay8_eq (h : Vec F S512x3200 .f32) (M : Vec F S512x1 .f32) : k0_pay8 h M = newM h M := shapeCast_self _ _
theorem pay9_eq (h : Vec F S512x3200 .f32) (M : Vec F S512x1 .f32) : k0_pay9 h M = newM h M := rfl
theorem pay1_eq (h : Vec F S512x3200 .f32) (M L : Vec F S512x1 .f32) :
    k0_pay1 h (newM h M) (k0_pay10 h M M) L = newL h M L := rfl

/-- A whole-buffer load after a whole-buffer store reads the stored value, whatever was stored before. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]
theorem pay7_eq (h : Vec F S512x3200 .f32) (M L : Vec F S512x1 .f32) : k0_pay7 h M M L = newL h M L := rfl

/-- A later point of a row block leaves in the maximum's scratch column both steps applied to what it found there, -/
theorem sB0 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : ¬cond0_0 i)
    (x : Vec F S512x6400 .f32) (xs0 xs1 : Vec F S512x1 .f32) :
    sout0_B_0 c i a2 h2 a3 h3 a4 h4 a5 h5 hc x xs0 xs1 = pointM x xs0 := by
  unfold sout0_B_0
  rw [View.read_writes_eq_canon _ _ _ (scover0_B_0 c i a2 h2 a3 h3 a4 h4 a5 h5 hc x xs0 xs1)]
  unfold kernelRun0_B
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

/-- in the sum's scratch column both steps applied to the two columns it found, -/
theorem sB1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : ¬cond0_0 i)
    (x : Vec F S512x6400 .f32) (xs0 xs1 : Vec F S512x1 .f32) :
    sout0_B_1 c i a2 h2 a3 h3 a4 h4 a5 h5 hc x xs0 xs1 = pointL x xs0 xs1 := by
  unfold sout0_B_1
  rw [View.read_writes_eq_canon _ _ _ (scover0_B_1 c i a2 h2 a3 h3 a4 h4 a5 h5 hc x xs0 xs1)]
  unfold kernelRun0_B
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

/-- and in the output's staging buffer the maximum plus the logarithm of the sum. -/
theorem oB (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : ¬cond0_0 i)
    (x : Vec F S512x6400 .f32) (xs0 xs1 : Vec F S512x1 .f32) :
    out0_B_1 c i a2 h2 a3 h3 a4 h4 a5 h5 hc x xs0 xs1 = pointOut x xs0 xs1 := by
  unfold out0_B_1
  rw [View.read_writes_eq_canon _ _ _ (cover0_B_1 c i a2 h2 a3 h3 a4 h4 a5 h5 hc x xs0 xs1)]
  unfold kernelRun0_B
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

/-- The first point of a row block does the same from the two constants it stores first: the maximum's column, -/
theorem sA0 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : cond0_0 i)
    (x : Vec F S512x6400 .f32) :
    sout0_A_0 c i a2 h2 a3 h3 a4 h4 a5 h5 hc x = pointM x k0_pay4 := by
  unfold sout0_A_0
  rw [View.read_writes_eq_canon _ _ _ (scover0_A_0 c i a2 h2 a3 h3 a4 h4 a5 h5 hc x)]
  unfold kernelRun0_A
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

/-- the sum's column, -/
theorem sA1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : cond0_0 i)
    (x : Vec F S512x6400 .f32) :
    sout0_A_1 c i a2 h2 a3 h3 a4 h4 a5 h5 hc x = pointL x k0_pay4 k0_pay5 := by
  unfold sout0_A_1
  rw [View.read_writes_eq_canon _ _ _ (scover0_A_1 c i a2 h2 a3 h3 a4 h4 a5 h5 hc x)]
  unfold kernelRun0_A
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

/-- and the output's staging buffer. -/
theorem oA (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc : cond0_0 i)
    (x : Vec F S512x6400 .f32) :
    out0_A_1 c i a2 h2 a3 h3 a4 h4 a5 h5 hc x = pointOut x k0_pay4 k0_pay5 := by
  unfold out0_A_1
  rw [View.read_writes_eq_canon _ _ _ (cover0_A_1 c i a2 h2 a3 h3 a4 h4 a5 h5 hc x)]
  unfold kernelRun0_A
  dsimp only
  sl_unfold_words
  rw [View.canon_cons_unit_zero (S := S512x1) hz]
  simp only [readCov_cons_unit_zero (S := S512x1) _ hz, View.readAt_eq_ld, h2.read_unread, h4.read_unread,
    h5.read_unread, View.ld_unit_zero (S := S512x1) hz]
  simp only [pay2_eq, pay8_eq, pay9_eq, pay1_eq, pay7_eq]
  rfl

end Cert.KernelIdeal.Pieces

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.LibLogSumExp.lean ====
/-
  The streaming log-sum-exp, on real entries of the extended reals.

  A row's log-sum-exp `log Σ e^(x k)` can be accumulated block by block without ever forming a large exponential:
  keep a running shift `M` and a running sum `L` with `L · e^M = Σ e^(x k)` over the entries seen so far; on a new
  block move the shift to any real `M'` (in practice the larger of `M` and the block's maximum), rescale `L` by
  `e^(M − M')` and add the block's `e^(x k − M')`. The relation `L · e^M = Σ` is kept whatever real number the new
  shift is, so the value of the starting shift never matters as long as it is a real number, and at the end
  `M + log L = log Σ e^(x k)`. The textbook form shifted by the row maximum, `(x c − m) − log Σ e^(x k − m)`, is the
  same number: `x c − log Σ e^(x k)`. All of this needs real (finite) entries: at an infinity `e^(x − m)` and the
  cancellations fail. Also here: a fold of `max` from `⊥` over a nonempty family of real numbers is a real number.
-/
import Idealize.ShloMosaic.PureOps.Ideal
import proofs.«127063_j40424232190041_2_alg».proof.Proof.LibRealEntries

namespace Cert.LogSumExp

open Idealize.ShloMosaic RealEntries

/-- The running pair `(Mv, Lv)` carries the partial sum `S` of exponentials: both are real numbers, `L · e^M = S`. -/
def Carries (Mv Lv : EReal) (S : ℝ) : Prop :=
  ∃ M L : ℝ, Mv = (M : EReal) ∧ Lv = (L : EReal) ∧ L * Real.exp M = S

/-- The inclusion of the real numbers keeps maxima. -/
theorem coe_max (a b : ℝ) : ((max a b : ℝ) : EReal) = max (a : EReal) (b : EReal) :=
  EReal.coe_strictMono.monotone.map_max

/-- Before any entry: any real shift with the sum zero carries the empty sum. -/
theorem carries_init {N : EReal} (hN : IsReal N) : Carries N 0 0 := by
  obtain ⟨n, rfl⟩ := hN
  exact ⟨n, 0, rfl, EReal.coe_zero.symm, zero_mul _⟩

/-- One block: the shift moves to `max M lm` (`lm` any real number), the sum is rescaled and the block's terms are
    added; the pair then carries the old partial sum plus the block's exponentials. -/
theorem carries_step {ι : Type*} (s : Finset ι) {Mv Lv : EReal} {S : ℝ} (h : Carries Mv Lv S) {lm : EReal}
    (hlm : IsReal lm) (f : ι → EReal) (x : ι → ℝ) (hf : ∀ k ∈ s, f k = (x k : EReal)) :
    Carries (max Mv lm) (Lv * Ideal.exp (Mv - max Mv lm) + ∑ k ∈ s, Ideal.exp (f k - max Mv lm))
      (S + ∑ k ∈ s, Real.exp (x k)) := by
  obtain ⟨M, L, rfl, rfl, hS⟩ := h
  obtain ⟨l, rfl⟩ := hlm
  refine ⟨max M l, L * Real.exp (M - max M l) + ∑ k ∈ s, Real.exp (x k - max M l), (coe_max M l).symm, ?_, ?_⟩
  · rw [Finset.sum_congr rfl fun k hk => by rw [hf k hk], ← coe_max]
    simp only [← EReal.coe_sub, Ideal.exp_coe, ← EReal.coe_mul, coe_sum, ← EReal.coe_add]
  · rw [add_mul, Finset.sum_mul, mul_assoc, ← Real.exp_add, ← hS]
    congr 1
    · congr 2; ring
    · refine Finset.sum_congr rfl fun k _ => ?_
      rw [← Real.exp_add]; congr 1; ring

/-- At the end: the shift plus the logarithm of the sum is the logarithm of the carried sum of exponentials. -/
theorem carries_out {Mv Lv : EReal} {S : ℝ} (h : Carries Mv Lv S) (hS : 0 < S) :
    Mv + Ideal.log Lv = (Real.log S : EReal) := by
  obtain ⟨M, L, rfl, rfl, hE⟩ := h
  have hL : 0 < L := by
    by_contra hn
    have h1 : L ≤ 0 := not_lt.mp hn
    have h2 := Real.exp_pos M
    nlinarith
  rw [Ideal.log_coe, if_neg (not_le.mpr hL), ← EReal.coe_add]
  congr 1
  rw [← hE, Real.log_mul hL.ne' (Real.exp_pos M).ne', Real.log_exp]; ring

/-- The log-softmax shifted by any real `m`, negated, is the log-sum-exp minus the entry. -/
theorem neg_logSoftmax {ι : Type*} (s : Finset ι) (x : ι → ℝ) (m xc : ℝ) (hS : 0 < ∑ k ∈ s, Real.exp (x k)) :
    -(((xc : EReal) - (m : EReal)) - Ideal.log (∑ k ∈ s, Ideal.exp ((x k : EReal) - (m : EReal))))
      = (Real.log (∑ k ∈ s, Real.exp (x k)) : EReal) - (xc : EReal) := by
  have e : ∑ k ∈ s, Real.exp (x k - m) = Real.exp (-m) * ∑ k ∈ s, Real.exp (x k) := by
    rw [Finset.mul_sum]; refine Finset.sum_congr rfl fun k _ => ?_
    rw [← Real.exp_add]; congr 1; ring
  have hpos : 0 < ∑ k ∈ s, Real.exp (x k - m) := by rw [e]; exact mul_pos (Real.exp_pos _) hS
  simp only [← EReal.coe_sub, Ideal.exp_coe, coe_sum]
  rw [Ideal.log_coe, if_neg (not_le.mpr hpos), ← EReal.coe_sub, ← EReal.coe_neg]
  congr 1
  rw [e, Real.log_mul (Real.exp_pos _).ne' hS.ne', Real.log_exp]; ring

/-- A fold of `max` from `⊥` over a nonempty family of real numbers is a real number. -/
theorem isReal_fold_max {ι : Type*} (s : Finset ι) (hs : s.Nonempty) (f : ι → EReal) (hf : ∀ k ∈ s, IsReal (f k)) :
    IsReal (s.fold max ⊥ f) := by
  refine isReal_of_ne ?_ ?_
  · exact ne_of_lt ((Finset.fold_max_lt (⊤ : EReal)).mpr ⟨bot_lt_top, fun k hk => lt_top_iff_ne_top.mpr (hf k hk).ne_top⟩)
  · obtain ⟨k, hk⟩ := hs
    have hle : f k ≤ s.fold max ⊥ f := (Finset.le_fold_max (f k)).mpr (Or.inr ⟨k, hk, le_rfl⟩)
    intro h
    rw [h] at hle
    exact (hf k hk).ne_bot (le_bot_iff.mp hle)

end Cert.LogSumExp
-- ==== Proof.RowStep.lean ====
/-
  One grid point of the streaming log-sum-exp, read row by row at the exact instance.

  At row `r` of a [512, 6400] block `x` the two steps of a point read: the new maximum is the larger of the old one
  and the half block's row maximum; the new sum is the old one times `exp (M − M')` plus the half row's
  `exp (x − M')`. When the row's entries are real numbers and the running pair carries the partial sum `S` of
  exponentials (`L · e^M = S`), it carries `S` plus the row's 6400 exponentials after the point; and the output
  column is the maximum plus the logarithm of the sum.
-/
import proofs.«127063_j40424232190041_2_alg».proof.Proof.Pieces
import proofs.«127063_j40424232190041_2_alg».proof.Proof.LibKeepdims
import proofs.«127063_j40424232190041_2_alg».proof.Proof.LibLaneMax
import proofs.«127063_j40424232190041_2_alg».proof.Proof.LibLogSumExp
import Idealize.ShloMosaic.Lib.ValueIdx
import Idealize.ShloMosaic.PureOps.Ideal.Laws

noncomputable section

open Idealize.ShloMosaic Idealize.ShloMosaic.ValueIdx

namespace Cert.KernelIdeal.RowStep

open Cert.KernelIdeal Cert.KernelIdeal.Gen Cert.KernelIdeal.Pieces RealEntries Cert.LogSumExp

/-- The maximum of row `r` of a half block. -/
def rowMax (h : FVec Ideal S512x3200 .f32) (r : Fin 512) : EReal :=
  (Finset.univ : Finset (Fin 3200)).fold max ⊥ fun k => h (ix2 r k)

/-- The new maximum at row `r`. -/
theorem newM_apply (h : FVec Ideal S512x3200 .f32) (M : FVec Ideal S512x1 .f32) (r : Fin 512) :
    newM (F := Ideal) h M (ix2 r 0) = max (M (ix2 r 0)) (rowMax h r) := by
  show max (M (ix2 r 0)) (shapeCast S512x1 _ _ (ix2 r 0)) = _
  refine congrArg (max (M (ix2 r 0))) ?_
  refine (Cert.Keepdims.shapeCast_a_a1_apply _ _ r (0 : Fin 1)).trans ?_
  exact Cert.LibLaneMax.laneMax_apply _ _ _ _ r

/-- The new sum at row `r`. -/
theorem newL_apply (h : FVec Ideal S512x3200 .f32) (M L : FVec Ideal S512x1 .f32) (r : Fin 512) :
    newL (F := Ideal) h M L (ix2 r 0)
      = L (ix2 r 0) * Ideal.exp (M (ix2 r 0) - newM (F := Ideal) h M (ix2 r 0))
        + ∑ k : Fin 3200, Ideal.exp (h (ix2 r k) - newM (F := Ideal) h M (ix2 r 0)) := by
  unfold newL k0_pay7
  refine (congrFun (shapeCast_self _ _) (ix2 r (0 : Fin 1))).trans ?_
  show L (ix2 r (0 : Fin 1)) * Ideal.exp (M (ix2 r (0 : Fin 1)) - newM (F := Ideal) h M (ix2 r (0 : Fin 1)))
      + shapeCast S512x1 _ _ (ix2 r (0 : Fin 1)) = _
  refine congrArg (fun z : EReal => L (ix2 r (0 : Fin 1))
    * Ideal.exp (M (ix2 r (0 : Fin 1)) - newM (F := Ideal) h M (ix2 r (0 : Fin 1))) + z) ?_
  refine (Cert.Keepdims.shapeCast_a_a1_apply _ _ r (0 : Fin 1)).trans ?_
  refine (Cert.Keepdims.laneSum_apply _ _ _ _ r).trans ?_
  refine Finset.sum_congr rfl fun k _ => ?_
  show Ideal.exp (h (ix2 r k) - broadcastTo S512x3200 (newM (F := Ideal) h M) _ (ix2 r k)) = _
  rw [Cert.Keepdims.broadcastTo_a1_ab_apply]

/-- The output column at row `r`: the maximum plus the logarithm of the sum. -/
theorem pointOut_apply (x : FVec Ideal S512x6400 .f32) (M L : FVec Ideal S512x1 .f32) (r : Fin 512) :
    pointOut (F := Ideal) x M L (ix2 r 0) = pointM (F := Ideal) x M (ix2 r 0) + Ideal.log (pointL (F := Ideal) x M L (ix2 r 0)) := rfl

/-- Entry `(r, k)` of the left half is entry `(r, k)` of the block, -/
theorem lo_apply (x : FVec Ideal S512x6400 .f32) (r : Fin 512) (k : Fin 3200) :
    lo (F := Ideal) x (ix2 r k) = x (ix2 r ⟨k.val, by omega⟩) := by
  show x _ = x _
  congr 1
  funext a
  apply Fin.ext
  match a with
  | ⟨0, _⟩ => show 0 + 1 * r.val = r.val; omega
  | ⟨1, _⟩ => show 0 + 1 * k.val = k.val; omega

/-- and of the right half entry `(r, 3200 + k)`. -/
theorem hi_apply (x : FVec Ideal S512x6400 .f32) (r : Fin 512) (k : Fin 3200) :
    hi (F := Ideal) x (ix2 r k) = x (ix2 r ⟨3200 + k.val, by omega⟩) := by
  show x _ = x _
  congr 1
  funext a
  apply Fin.ext
  match a with
  | ⟨0, _⟩ => show 0 + 1 * r.val = r.val; omega
  | ⟨1, _⟩ => show 3200 + 1 * k.val = 3200 + k.val; omega

/-- One step on a half block whose row `r` holds the real numbers `y k`: the pair goes on carrying the sum. -/
theorem step_carries (h : FVec Ideal S512x3200 .f32) (M L : FVec Ideal S512x1 .f32) (r : Fin 512) (y : Fin 3200 → ℝ)
    (hy : ∀ k, h (ix2 r k) = (y k : EReal)) {S : ℝ} (hc : Carries (M (ix2 r 0)) (L (ix2 r 0)) S) :
    Carries (newM (F := Ideal) h M (ix2 r 0)) (newL (F := Ideal) h M L (ix2 r 0)) (S + ∑ k : Fin 3200, Real.exp (y k)) := by
  have hmax : IsReal (rowMax h r) :=
    isReal_fold_max _ ⟨0, Finset.mem_univ _⟩ _ fun k _ => ⟨y k, hy k⟩
  rw [newL_apply, newM_apply]
  exact carries_step Finset.univ hc hmax (fun k => h (ix2 r k)) y fun k _ => hy k

/-- A whole point on a block whose row `r` holds the real numbers `y k`: the pair carries the 6400 further
    exponentials, the left half's first. -/
theorem point_carries (x : FVec Ideal S512x6400 .f32) (M L : FVec Ideal S512x1 .f32) (r : Fin 512) (y : ℕ → ℝ)
    (hy : ∀ k : Fin 6400, x (ix2 r k) = (y k.val : EReal)) {S : ℝ} (hc : Carries (M (ix2 r 0)) (L (ix2 r 0)) S) :
    Carries (pointM (F := Ideal) x M (ix2 r 0)) (pointL (F := Ideal) x M L (ix2 r 0))
      (S + ∑ k ∈ Finset.range 3200, Real.exp (y k) + ∑ k ∈ Finset.range 3200, Real.exp (y (3200 + k))) := by
  have h1 := step_carries (lo (F := Ideal) x) M L r (fun k => y k.val) (fun k => by rw [lo_apply]; exact hy _) hc
  have h2 := step_carries (hi (F := Ideal) x) (newM (F := Ideal) (lo (F := Ideal) x) M) (newL (F := Ideal) (lo (F := Ideal) x) M L) r (fun k => y (3200 + k.val))
    (fun k => by rw [hi_apply]; exact hy _) h1
  rw [Finset.sum_range (fun k => Real.exp (y k)), Finset.sum_range (fun k => Real.exp (y (3200 + k)))]
  exact h2

end Cert.KernelIdeal.RowStep

end
-- ==== Proof.Stream.lean ====
/-
  The kernel's result column: every row's log-sum-exp.

  The grid is 4 row blocks of 512 rows by 5 column blocks of 6400 columns, the column axis innermost, so point
  `n` works on row block `n / 5` and column block `n % 5`. For real logits, after point `n` the two scratch columns
  carry, at row `r` of the block, the sum of `e^x` over the first `6400 · (n % 5 + 1)` columns of array row
  `512 · (n / 5) + r` (induction over the points: the first point of a row block starts from a finite constant and
  zero, which carry the empty sum; a later point starts from what the point before left), and the output's staging
  column holds the maximum plus the logarithm of the sum. The column is written back after the last column block only,
  when the carried sum is the whole row's: the result array ends holding `log Σ_c e^(x R c)` at every row `R`.
-/
import proofs.«127063_j40424232190041_2_alg».proof.Proof.RowStep
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Stream

open Cert.KernelIdeal Cert.KernelIdeal.Gen Cert.KernelIdeal.Pieces Cert.KernelIdeal.RowStep RealEntries Cert.LogSumExp

variable (m : (ℓ : Loc nD τ sig) → Buf (Elt Ideal) ℓ)

/-- The logits on core `c`. -/
abbrev X (c : Dev nD) : S2048x32000.Idx → EReal := m ((c : Thread nD τ).loc main_arg0)

/-- The logit in row `R`, column `C`, as a real number (zero outside the array). -/
def xr (c : Dev nD) (R C : ℕ) : ℝ :=
  if h : R < 2048 ∧ C < 32000 then (X m c (ix2 ⟨R, h.1⟩ ⟨C, h.2⟩)).toReal else 0

/-- The sum of `e^x` over the first `n` columns of row `R`. -/
def P (c : Dev nD) (R n : ℕ) : ℝ := ∑ k ∈ Finset.range n, Real.exp (xr m c R k)

/-- One more column block: its left half's terms, then its right half's. -/
theorem P_add (c : Dev nD) (R a : ℕ) :
    P m c R (a + 6400) = P m c R a + ∑ k ∈ Finset.range 3200, Real.exp (xr m c R (a + k))
      + ∑ k ∈ Finset.range 3200, Real.exp (xr m c R (a + (3200 + k))) := by
  unfold P
  rw [show a + 6400 = a + 3200 + 3200 by omega, Finset.sum_range_add, Finset.sum_range_add]
  simp only [add_assoc]

theorem P_pos (c : Dev nD) (R n : ℕ) (hn : 0 < n) : 0 < P m c R n :=
  Finset.sum_pos (fun k _ => Real.exp_pos _) ⟨0, Finset.mem_range.mpr hn⟩

/-- A real logit is the inclusion of its real value. -/
theorem entry_eq (c : Dev nD) (hfin : ∀ i, IsReal (X m c i)) (R : Fin 2048) (C : Fin 32000) :
    X m c (ix2 R C) = ((xr m c R.val C.val : ℝ) : EReal) := by
  obtain ⟨v, hv⟩ := hfin (ix2 R C)
  unfold xr
  rw [dif_pos ⟨R.isLt, C.isLt⟩]
  show X m c (ix2 R C) = (((X m c (ix2 R C)).toReal : ℝ) : EReal)
  rw [hv, EReal.toReal_coe]

/-- The printed index maps, decided over the grid: the input's block is (n / 5, n % 5), the output's (n / 5, 0). -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0 :=
  (by decide +kernel : ∀ t : Fin grid0.N, _)

/-- Entry `(r, k)` of the input block at point `t` is the logit in row `512 · (t / 5) + r`, column
    `6400 · (t % 5) + k`. -/
theorem iblk_apply (c : Dev nD) (t : Fin cfg0.N) (r : Fin 512) (k : Fin 6400) (K : S2048x32000.Idx)
    (hk0 : (K 0).val = 512 * (t.val / 5) + r.val) (hk1 : (K 1).val = 6400 * (t.val % 5) + k.val) :
    (iblk m c 0 t : Vec Ideal S512x6400 .f32) (ix2 r k) = X m c K := by
  obtain ⟨e0, e1, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 512 + 1 * r.val = (K 0).val; rw [e0, hk0]; omega
  | ⟨1, _⟩ => show win0_0.index t 1 * 6400 + 1 * k.val = (K 1).val; rw [e1, hk1]; omega

/-- For real logits the block's row `r` holds the real numbers `xr (512 · (t / 5) + r) (6400 · (t % 5) + k)`. -/
theorem iblk_real (c : Dev nD) (hfin : ∀ i, IsReal (X m c i)) (t : Fin cfg0.N) (r : Fin 512) (k : Fin 6400) :
    (iblk m c 0 t : Vec Ideal S512x6400 .f32) (ix2 r k)
      = ((xr m c (512 * (t.val / 5) + r.val) (6400 * (t.val % 5) + k.val) : ℝ) : EReal) := by
  have hN : t.val < 20 := lt_of_lt_of_eq t.isLt (show cfg0.N = 20 from N_0)
  have hR : 512 * (t.val / 5) + r.val < 2048 := by have := r.isLt; omega
  have hC : 6400 * (t.val % 5) + k.val < 32000 := by have := k.isLt; omega
  rw [iblk_apply m c t r k (ix2 ⟨_, hR⟩ ⟨_, hC⟩) rfl rfl]
  exact entry_eq m c hfin ⟨_, hR⟩ ⟨_, hC⟩

/-- The finite constant the running maximum starts from is a real number. -/
theorem sentinel_real : IsReal (Ideal.ofBits .f32 0xFF333332#32) := by
  show IsReal (Ideal.ieee 8 23 (0xFF333332#32 : BitVec 32))
  unfold Ideal.ieee
  dsimp only
  rw [if_neg (by decide), if_neg (by decide)]
  exact ⟨_, rfl⟩

/-- What the first point of a row block starts from carries the empty sum. -/
theorem start_carries (r : Fin 512) :
    Carries (k0_pay4 (F := Ideal) (ix2 r (0 : Fin 1))) (k0_pay5 (F := Ideal) (ix2 r (0 : Fin 1))) 0 := by
  have e4 : k0_pay4 (F := Ideal) (ix2 r (0 : Fin 1)) = Ideal.ofBits .f32 0xFF333332#32 := by
    unfold k0_pay4
    exact congrFun (shapeCast_self _ _) _
  have e5 : k0_pay5 (F := Ideal) (ix2 r (0 : Fin 1)) = 0 := by
    unfold k0_pay5
    exact (congrFun (shapeCast_self _ _) _).trans Ideal.ofBits_zero_f32
  rw [e4, e5]
  exact carries_init sentinel_real

/-- One point, over variables: from a pair carrying `S` at row `r`, the three columns a point leaves. -/
theorem point_inv (x : FVec Ideal S512x6400 .f32) (M L o s0 s1 : FVec Ideal S512x1 .f32) (y : ℕ → ℝ) (r : Fin 512)
    (S : ℝ) (hy : ∀ k : Fin 6400, x (ix2 r k) = (y k.val : EReal))
    (hc : Carries (M (ix2 r (0 : Fin 1))) (L (ix2 r (0 : Fin 1))) S)
    (ho : o = pointOut (F := Ideal) x M L) (h0 : s0 = pointM (F := Ideal) x M) (h1 : s1 = pointL (F := Ideal) x M L) :
    Carries (s0 (ix2 r (0 : Fin 1))) (s1 (ix2 r (0 : Fin 1)))
        (S + ∑ k ∈ Finset.range 3200, Real.exp (y k) + ∑ k ∈ Finset.range 3200, Real.exp (y (3200 + k)))
      ∧ o (ix2 r (0 : Fin 1)) = s0 (ix2 r (0 : Fin 1)) + Ideal.log (s1 (ix2 r (0 : Fin 1))) := by
  subst ho h0 h1
  exact ⟨point_carries x M L r y hy hc, pointOut_apply x M L r⟩

/-- THE INVARIANT after point `n`: at every row of the block the scratch columns carry the sum over the columns seen so
    far, and the output's staging column is the maximum plus the logarithm of the sum. -/
def Inv (c : Dev nD) (n : ℕ) (hn : n < cfg0.N) : Prop :=
  ∀ r : Fin 512,
    Carries ((outsAt0 m c n hn).2.1 (ix2 r (0 : Fin 1))) ((outsAt0 m c n hn).2.2 (ix2 r (0 : Fin 1)))
        (P m c (512 * (n / 5) + r.val) (6400 * (n % 5) + 6400))
      ∧ (outsAt0 m c n hn).1 (ix2 r (0 : Fin 1))
          = (outsAt0 m c n hn).2.1 (ix2 r (0 : Fin 1)) + Ideal.log ((outsAt0 m c n hn).2.2 (ix2 r (0 : Fin 1)))

/-- At the first point of a row block. -/
theorem inv_A (c : Dev nD) (hfin : ∀ i, IsReal (X m c i)) (t : Fin cfg0.N) (h0 : t.val % 5 = 0) :
    Inv m c t.val t.isLt := by
  intro r
  have e := outsAt0_A m c t h0
  have ho : (outsAt0 m c t.val t.isLt).1
      = pointOut (F := Ideal) (iblk m c 0 t) (k0_pay4 (F := Ideal)) (k0_pay5 (F := Ideal)) :=
    (congrArg (fun p => p.1) e).trans (oA c (grid0.coords t) (ms0_0 t) (hs0_0 t) (ms0_1 t) (hs0_1 t) scM0_0
      (Memref.isWhole_whole _) scM0_1 (Memref.isWhole_whole _) ((hcond0_0 t).mpr h0) (iblk m c 0 t))
  have hs0 : (outsAt0 m c t.val t.isLt).2.1 = pointM (F := Ideal) (iblk m c 0 t) (k0_pay4 (F := Ideal)) :=
    (congrArg (fun p => p.2.1) e).trans (sA0 c (grid0.coords t) (ms0_0 t) (hs0_0 t) (ms0_1 t) (hs0_1 t) scM0_0
      (Memref.isWhole_whole _) scM0_1 (Memref.isWhole_whole _) ((hcond0_0 t).mpr h0) (iblk m c 0 t))
  have hs1 : (outsAt0 m c t.val t.isLt).2.2
      = pointL (F := Ideal) (iblk m c 0 t) (k0_pay4 (F := Ideal)) (k0_pay5 (F := Ideal)) :=
    (congrArg (fun p => p.2.2) e).trans (sA1 c (grid0.coords t) (ms0_0 t) (hs0_0 t) (ms0_1 t) (hs0_1 t) scM0_0
      (Memref.isWhole_whole _) scM0_1 (Memref.isWhole_whole _) ((hcond0_0 t).mpr h0) (iblk m c 0 t))
  have hc : Carries (k0_pay4 (F := Ideal) (ix2 r (0 : Fin 1))) (k0_pay5 (F := Ideal) (ix2 r (0 : Fin 1)))
      (P m c (512 * (t.val / 5) + r.val) (6400 * (t.val % 5))) := by
    rw [h0, show P m c (512 * (t.val / 5) + r.val) (6400 * 0) = 0 from Finset.sum_range_zero _]
    exact start_carries r
  rw [P_add]
  exact point_inv (iblk m c 0 t) (k0_pay4 (F := Ideal)) (k0_pay5 (F := Ideal)) (outsAt0 m c t.val t.isLt).1
    (outsAt0 m c t.val t.isLt).2.1 (outsAt0 m c t.val t.isLt).2.2
    (fun k => xr m c (512 * (t.val / 5) + r.val) (6400 * (t.val % 5) + k)) r
    (P m c (512 * (t.val / 5) + r.val) (6400 * (t.val % 5)))
    (fun k => iblk_real m c hfin t r k) hc ho hs0 hs1

set_option maxHeartbeats 1000000 in
/-- At a later point, from the invariant after the point before. -/
theorem inv_B (c : Dev nD) (hfin : ∀ i, IsReal (X m c i)) (t : Fin cfg0.N) (h0 : ¬t.val % 5 = 0)
    (hprev : Inv m c (t.val - 1) (Nat.lt_of_le_of_lt (Nat.sub_le _ _) t.isLt)) :
    Inv m c t.val t.isLt := by
  intro r
  have e := outsAt0_B m c t h0
  have ho : (outsAt0 m c t.val t.isLt).1
      = pointOut (F := Ideal) (iblk m c 0 t)
          (outsAt0 m c (t.val - 1) (Nat.lt_of_le_of_lt (Nat.sub_le _ _) t.isLt)).2.1
          (outsAt0 m c (t.val - 1) (Nat.lt_of_le_of_lt (Nat.sub_le _ _) t.isLt)).2.2 :=
    (congrArg (fun p => p.1) e).trans (oB c (grid0.coords t) (ms0_0 t) (hs0_0 t) (ms0_1 t) (hs0_1 t) scM0_0
      (Memref.isWhole_whole _) scM0_1 (Memref.isWhole_whole _) (fun h => h0 ((hcond0_0 t).mp h)) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2)
  have hs0 : (outsAt0 m c t.val t.isLt).2.1
      = pointM (F := Ideal) (iblk m c 0 t)
          (outsAt0 m c (t.val - 1) (Nat.lt_of_le_of_lt (Nat.sub_le _ _) t.isLt)).2.1 :=
    (congrArg (fun p => p.2.1) e).trans (sB0 c (grid0.coords t) (ms0_0 t) (hs0_0 t) (ms0_1 t) (hs0_1 t) scM0_0
      (Memref.isWhole_whole _) scM0_1 (Memref.isWhole_whole _) (fun h => h0 ((hcond0_0 t).mp h)) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2)
  have hs1 : (outsAt0 m c t.val t.isLt).2.2
      = pointL (F := Ideal) (iblk m c 0 t)
          (outsAt0 m c (t.val - 1) (Nat.lt_of_le_of_lt (Nat.sub_le _ _) t.isLt)).2.1
          (outsAt0 m c (t.val - 1) (Nat.lt_of_le_of_lt (Nat.sub_le _ _) t.isLt)).2.2 :=
    have e22 : (outsAt0 m c t.val t.isLt).2.2 = sout0_B_1 c (grid0.coords t) (ms0_0 t) (hs0_0 t) (ms0_1 t) (hs0_1 t) scM0_0
      (Memref.isWhole_whole _) scM0_1 (Memref.isWhole_whole _) (fun h => h0 ((hcond0_0 t).mp h)) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2 :=
      congrArg (fun p => p.2.2) e
    e22.trans (sB1 c (grid0.coords t) (ms0_0 t) (hs0_0 t) (ms0_1 t) (hs0_1 t) scM0_0
      (Memref.isWhole_whole _) scM0_1 (Memref.isWhole_whole _) (fun h => h0 ((hcond0_0 t).mp h)) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2)
  have hq : (t.val - 1) / 5 = t.val / 5 := by omega
  have hm : 6400 * ((t.val - 1) % 5) + 6400 = 6400 * (t.val % 5) := by omega
  have hc := (hprev r).1
  rw [hq, hm] at hc
  rw [P_add]
  exact point_inv (iblk m c 0 t)
    (outsAt0 m c (t.val - 1) (Nat.lt_of_le_of_lt (Nat.sub_le _ _) t.isLt)).2.1
    (outsAt0 m c (t.val - 1) (Nat.lt_of_le_of_lt (Nat.sub_le _ _) t.isLt)).2.2
    (outsAt0 m c t.val t.isLt).1 (outsAt0 m c t.val t.isLt).2.1 (outsAt0 m c t.val t.isLt).2.2
    (fun k => xr m c (512 * (t.val / 5) + r.val) (6400 * (t.val % 5) + k)) r
    (P m c (512 * (t.val / 5) + r.val) (6400 * (t.val % 5)))
    (fun k => iblk_real m c hfin t r k) hc ho hs0 hs1

/-- The invariant holds after every point: induction over the points. -/
theorem inv_all (c : Dev nD) (hfin : ∀ i, IsReal (X m c i)) : ∀ (n : ℕ) (hn : n < cfg0.N), Inv m c n hn := by
  intro n
  induction n with
  | zero => intro hn; exact inv_A m c hfin ⟨0, hn⟩ rfl
  | succ n ih =>
    intro hn
    by_cases h0 : (n + 1) % 5 = 0
    · exact inv_A m c hfin ⟨n + 1, hn⟩ h0
    · exact inv_B m c hfin ⟨n + 1, hn⟩ h0 (ih (Nat.lt_of_succ_lt hn))

end Cert.KernelIdeal.Stream

end
-- ==== Proof.Tail.lean ====
/-
  After the region: the loss as a function of the kernel's result column.

  The host lines after the region reshape the [2048, 1] column of row log-sum-exps to a vector, normalise the two
  index arrays (a negative index counts from the end), gather the column at the row indices and the logits at the
  (row, column) index pairs, subtract, sum the 16384 differences from zero and divide by 2048. Here that tail is
  one function of the column, the logits and the two index arrays; the frame run's value of the result buffer is this
  function at the column the region left, which for real logits is every row's log-sum-exp.
-/
import proofs.«127063_j40424232190041_2_alg».proof.Proof.Stream
import Idealize.ShloMosaic.Lib.StableHlo.Run

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Tail

open Cert.KernelIdeal Cert.KernelIdeal.Gen Cert.KernelIdeal.Stream RealEntries Cert.LogSumExp

/-- An index array with its negative entries counted from the end of an axis of extent `n`, as a column. -/
def normIdx (n : BitVec 32) (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 n))) a)

/-- The (row, column) index pairs. -/
def pairIdx (a1 a2 : IVec S16384 32) : IVec S16384x2 32 :=
  concatenate S16384x2 1 [⟨S16384x1, normIdx 2048#32 a2⟩, ⟨S16384x1, normIdx 32000#32 a1⟩]
    concatenates_S16384x1_S16384x1_S16384x2_d1

/-- The 16384 differences: the column gathered at the row indices minus the logits gathered at the index pairs. -/
def terms (v0 : FVec Ideal S2048x1 .f32) (x : FVec Ideal S2048x32000 .f32) (a1 a2 : IVec S16384 32) :
    FVec Ideal S16384 .f32 :=
  subf (Host.gather gather_S2048_S16384x1_S16384_n_0_n_n_0_1_1
      (fun i => shapeCast S2048 v0 shapeCasts_S2048x1_S2048 i) (normIdx 2048#32 a2))
    (Host.gather gather_S2048x32000_S16384x2_S16384_n_01_n_n_01_1_11 x (pairIdx a1 a2))

/-- Their sum from zero, divided by 2048. -/
def total (w : FVec Ideal S16384 .f32) : FVec Ideal S_ .f32 :=
  Host.divf (Host.reduceAdd w (constant (F := Ideal) S_ .f32 0x00000000#32) reducesTo_S16384_S_d0 h_S_)
    (constant (F := Ideal) S_ .f32 0x45000000#32)

variable (m : (ℓ : Loc nD τ sig) → Buf (Elt Ideal) ℓ) (ρ : Dev nD → PrngReg)

set_option maxHeartbeats 1000000 in
/-- The result buffer after the host lines: the tail at the column the region left and the arguments. -/
theorem tail_eq (c : Dev nD) :
    Pipeline.afterTail₀ cfgs (dats m) 0 (V0 m) [hostOps1] c main_v25
      = total (terms ((dats m 0 c).arrAt 1 cfg0.N) (m ((c : Thread nD τ).loc main_arg0))
          (m ((c : Thread nD τ).loc main_arg1)) (m ((c : Thread nD τ).loc main_arg2))) := by
  have h0 : Pipeline.withArrays (cfgs 0).spec c (V0 m c) (fun w => (dats m 0 c).arrAt w (cfgs 0).N)
      (Proc.devRef .tc main_v0) = (dats m 0 c).arrAt 1 cfg0.N :=
    Pipeline.withArrays_arr spec0 launch0.win.arr_inj c _ _ 1
  have hx : Pipeline.withArrays (cfgs 0).spec c (V0 m c) (fun w => (dats m 0 c).arrAt w (cfgs 0).N)
      (Proc.devRef .tc main_arg0) = m ((c : Thread nD τ).loc main_arg0) :=
    (Pipeline.withArrays_arr spec0 launch0.win.arr_inj c _ _ 0).trans
      (((dats m 0 c).arrAt_in 0 rfl _).trans ((A_eq m c 0).trans (V_main_arg0 m c)))
  have h1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  show StableHlo.after hostOps1 _ (Proc.devRef .tc main_v25) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [h0, hx, h1, h2]
  rfl

end Cert.KernelIdeal.Tail

end
-- ==== Proof.Final.lean ====
/-
  From blocks to the array: the result column after the run.

  The output window's block is rows `512 · (n / 5) … + 511` of the [2048, 1] column, and it is written back only
  after the last column block of a row block (points 4, 9, 14, 19), when the carried sum is the whole row's. What such a
  point writes back is therefore the block of ONE function of the array index — row `R` ↦ `log Σ_c e^(x R c)` — and the
  four written blocks cover the column (row `R` lies in the block written at point `5 · (R / 512) + 4`), so the column
  ends holding that function.
-/
import proofs.«127063_j40424232190041_2_alg».proof.Proof.Stream
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.KernelIdeal.Stream RealEntries Cert.LogSumExp

variable (m : (ℓ : Loc nD τ sig) → Buf (Elt Ideal) ℓ)

/-- Every row's log-sum-exp, as a [2048, 1] column. -/
def lse (c : Dev nD) : S2048x1.Idx → EReal := fun i => ((Real.log (P m c (i 0).val 32000) : ℝ) : EReal)

/-- What the output's staging column holds after the last column block of a row block, at row `r`. -/
theorem out_last (c : Dev nD) (hfin : ∀ i, IsReal (X m c i)) (t : Fin cfg0.N) (h4 : t.val % 5 = 4) (r : Fin 512) :
    (outsAt0 m c t.val t.isLt).1 (ix2 r (0 : Fin 1))
      = ((Real.log (P m c (512 * (t.val / 5) + r.val) 32000) : ℝ) : EReal) := by
  have hI := inv_all m c hfin t.val t.isLt r
  rw [hI.2, carries_out hI.1 (P_pos m c _ _ (by omega)), h4]

/-- WHAT A FLUSHING POINT WRITES BACK is its block of the column of log-sum-exps. -/
theorem flushed_eq (c : Dev nD) (hfin : ∀ i, IsReal (X m c i)) (t : Fin cfg0.N) (hf : (cfg0.win 1).flush t = true) :
    (dats m 0 c).flushed 1 t = ((cfg0.win 1).blk t).view.read (Elt Ideal) (lse m c) := by
  have h4 : t.val % 5 = 4 := (flush0_1 t).mp hf
  obtain ⟨-, -, e2, -⟩ := idx_facts t
  show (cfg0.win 1).cut (grid0.coords t) ((dats m 0 c).after 1 t) = _
  rw [after0_1]
  have key : ∀ y : S512x1.Idx, (outsAt0 m c t.val t.isLt).1 y = lse m c (((cfg0.win 1).blk t).view.emb y) := by
    intro y
    obtain ⟨r, u, rfl⟩ : ∃ (r : Fin 512) (u : Fin 1), y = ix2 r u := ⟨y 0, y 1, eq_ix2 y⟩
    obtain rfl : u = 0 := Subsingleton.elim _ _
    rw [out_last m c hfin t h4 r]
    unfold lse
    have hrow : ((((cfg0.win 1).blk t).view.emb (ix2 r (0 : Fin 1))) 0).val = 512 * (t.val / 5) + r.val := by
      show win0_1.index t 0 * 512 + 1 * r.val = _
      rw [e2]; omega
    rw [hrow]
  exact funext key

/-- An index of the column is in point `t`'s block iff each coordinate is in the block's range on its axis. -/
theorem mem_blk (t : Fin cfg0.N) (i : S2048x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v0).slice (win0_1.rect t)).set ↔ _
  rw [View.set_slice_whole, Rect.mem_set_unit]
  exact Iff.rfl

/-- THE COLUMN after the run: every row's log-sum-exp. -/
theorem final (c : Dev nD) (hfin : ∀ i, IsReal (X m c i)) : (dats m 0 c).arrAt 1 cfg0.N = lse m c :=
  (dats m 0 c).arrAt_eq_of_cover 1 (lse m c) (flushed_eq m c hfin) fun i => by
    have hi0 : (i 0).val < 2048 := (i 0).isLt
    have hi1 : (i 1).val < 1 := (i 1).isLt
    have hN : cfg0.N = 20 := N_0
    have hlt : 5 * ((i 0).val / 512) + 4 < cfg0.N := by rw [hN]; omega
    obtain ⟨-, -, e2, e3⟩ := idx_facts ⟨5 * ((i 0).val / 512) + 4, hlt⟩
    refine ⟨⟨5 * ((i 0).val / 512) + 4, hlt⟩, (flush0_1 _).mpr (by show (5 * ((i 0).val / 512) + 4) % 5 = 4; omega), ?_⟩
    rw [mem_blk]
    intro a
    match a with
    | ⟨0, _⟩ =>
      show win0_1.index ⟨5 * ((i 0).val / 512) + 4, hlt⟩ 0 * 512 ≤ (i 0).val
        ∧ (i 0).val < win0_1.index ⟨5 * ((i 0).val / 512) + 4, hlt⟩ 0 * 512 + 512
      rw [e2]; dsimp only; omega
    | ⟨1, _⟩ =>
      show win0_1.index ⟨5 * ((i 0).val / 512) + 4, hlt⟩ 1 * 1 ≤ (i 1).val
        ∧ (i 1).val < win0_1.index ⟨5 * ((i 0).val / 512) + 4, hlt⟩ 1 * 1 + 1
      rw [e3]; omega

end Cert.KernelIdeal.Final

end
-- ==== Proof.RefValue.lean ====
/-
  The reference, read: the negated log-softmax at the index pairs.

  The reference forms `log_softmax` of the logits row by row — subtract the row maximum `m`, then subtract
  `log Σ_k e^(x k − m)` —, gathers it at the (row, column) index pairs, negates, sums from zero and divides by 2048.
  At an entry `(R, C)` of real logits the row maximum is a real number (a fold of `max` from `−∞` over 32000 real
  numbers), so the negated entry is `log Σ_k e^(x R k) − x R C`: the shift cancels.
-/
import proofs.«127063_j40424232190041_2_alg».proof.Proof.RefRun
import proofs.«127063_j40424232190041_2_alg».proof.Proof.LibLogSumExp
import proofs.«127063_j40424232190041_2_alg».proof.Proof.LibLaneMax
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem

namespace Cert.ReferenceIdeal.RefValue

open Cert.ReferenceIdeal Cert.ReferenceIdeal.Gen RealEntries Cert.LogSumExp

/-- The row maxima as the reference forms them: the larger of `−∞` and the maximum over the row from `−∞`. -/
def rowMaxes (x : FVec Ideal S2048x32000 .f32) : FVec Ideal S2048 .f32 :=
  maximumf (broadcastInDim S2048 ![] bcast_S_S2048 (constant (F := Ideal) S_ .f32 0xFF800000#32))
    (Host.reduce FloatOps.maximumf x (constant (F := Ideal) S_ .f32 0xFF800000#32) reducesTo_S2048x32000_S2048_d1 h_S_)

/-- The logits minus their row maximum. -/
def shifted (x : FVec Ideal S2048x32000 .f32) : FVec Ideal S2048x32000 .f32 :=
  subf x (broadcastInDim S2048x32000 ![0, 1] bcast_S2048x1_S2048x32000_0_1
    (broadcastInDim S2048x1 ![0] bcast_S2048_S2048x1_0 (rowMaxes x)))

/-- The log-softmax. -/
def logp (x : FVec Ideal S2048x32000 .f32) : FVec Ideal S2048x32000 .f32 :=
  subf (shifted x) (broadcastInDim S2048x32000 ![0, 1] bcast_S2048x1_S2048x32000_0_1
    (Host.log (broadcastInDim S2048x1 ![0] bcast_S2048_S2048x1_0
      (Host.reduceAdd (Host.exp (shifted x)) (constant (F := Ideal) S_ .f32 0x00000000#32)
        reducesTo_S2048x32000_S2048_d1 h_S_))))

/-- An index array with its negative entries counted from the end of an axis of extent `n`, as a column. -/
def normIdx (n : BitVec 32) (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 n))) a)

/-- The (row, column) index pairs. -/
def pairIdx (a1 a2 : IVec S16384 32) : IVec S16384x2 32 :=
  concatenate S16384x2 1 [⟨S16384x1, normIdx 2048#32 a2⟩, ⟨S16384x1, normIdx 32000#32 a1⟩]
    concatenates_S16384x1_S16384x1_S16384x2_d1

/-- The 16384 terms: the negated log-softmax gathered at the index pairs. -/
def terms (x : FVec Ideal S2048x32000 .f32) (a1 a2 : IVec S16384 32) : FVec Ideal S16384 .f32 :=
  Host.negf (Host.gather gather_S2048x32000_S16384x2_S16384_n_01_n_n_01_1_11 (logp x) (pairIdx a1 a2))

/-- Their sum from zero, divided by 2048. -/
def total (w : FVec Ideal S16384 .f32) : FVec Ideal S_ .f32 :=
  Host.divf (Host.reduceAdd w (constant (F := Ideal) S_ .f32 0x00000000#32) reducesTo_S16384_S_d0 h_S_)
    (constant (F := Ideal) S_ .f32 0x45000000#32)

attribute [local irreducible] Host.reduce in
/-- The reference's run, with the result named by these functions. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = total (terms (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.ValueP.run (F := Ideal) m ρ

/-- A [2048] vector laid out as a column reads, at `(R, u)`, its entry `R`; -/
theorem col_apply {α : Type} (v : S2048.Idx → α) (R : Fin 2048) (u : Fin 1) :
    broadcastInDim S2048x1 ![0] bcast_S2048_S2048x1_0 v (ix2 R u) = v (ix1 R) :=
  broadcastInDim_apply _ _ v _ (ix1 R) (fun a => match a with
    | ⟨0, _⟩ => by show R.val = if (2048 : Nat) = 1 then 0 else R.val; rw [if_neg (by decide)])

/-- and a column broadcast along the rows reads, at `(R, C)`, its entry in row `R`. -/
theorem rows_apply {α : Type} (v : S2048x1.Idx → α) (R : Fin 2048) (C : Fin 32000) :
    broadcastInDim S2048x32000 ![0, 1] bcast_S2048x1_S2048x32000_0_1 v (ix2 R C) = v (ix2 R (0 : Fin 1)) :=
  broadcastInDim_apply _ _ v _ (ix2 R (0 : Fin 1)) (fun a => match a with
    | ⟨0, _⟩ => by show R.val = if (2048 : Nat) = 1 then 0 else R.val; rw [if_neg (by decide)]
    | ⟨1, _⟩ => by show 0 = if (1 : Nat) = 1 then 0 else C.val; rw [if_pos rfl])

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's sum over the columns from the zero pattern, at row `R`. -/
theorem rowSum_apply (y : FVec Ideal S2048x32000 .f32) (R : Fin 2048) :
    Host.reduceAdd y (constant (F := Ideal) S_ .f32 0x00000000#32) reducesTo_S2048x32000_S2048_d1 h_S_ (ix1 R)
      = Ideal.ofBits .f32 0x00000000#32 + ∑ k : Fin 32000, y (ix2 R k) := by
  simp only [Host.reduceAdd, Ideal.hostReduceAdd_def]
  rw [Ideal.hostReduceAdd_single reducesTo_S2048x32000_S2048_d1 (by decide)]
  refine congrArg₂ (· + ·) rfl (Finset.sum_congr rfl fun k _ => ?_)
  exact congrArg y (funext fun a => Fin.ext (by match a with | ⟨0, _⟩ => rfl | ⟨1, _⟩ => rfl))

attribute [local irreducible] Host.reduce in
/-- The row maximum of real logits is a real number. -/
theorem rowMaxes_real (x : FVec Ideal S2048x32000 .f32) (hx : ∀ i, IsReal (x i)) (R : Fin 2048) :
    IsReal (rowMaxes x (ix1 R)) := by
  have hfold : Host.reduce FloatOps.maximumf x (constant (F := Ideal) S_ .f32 0xFF800000#32)
      reducesTo_S2048x32000_S2048_d1 h_S_ (ix1 R)
        = (Finset.univ : Finset (Fin 32000)).fold max ⊥ (fun k => x (ix2 R k)) := by
    refine (Host.reduce_eq_fold_single FloatOps.maximumf x _ reducesTo_S2048x32000_S2048_d1 (by decide) h_S_
      (ix1 R)).trans ?_
    have hf : (x ∘ (by decide : S2048x32000.Reduces [1] S2048).lift (ix1 R)) = fun k => x (ix2 R k) :=
      funext fun k => congrArg x (by
        funext d
        apply Fin.ext
        match d with
        | ⟨0, _⟩ => rfl
        | ⟨1, _⟩ => rfl)
    exact congrArg₂ (fun i f => (Finset.univ : Finset (Fin 32000)).fold max i f) Cert.LibLaneMax.ofBits_neg_inf hf
  have hbc : broadcastInDim S2048 ![] bcast_S_S2048 (constant (F := Ideal) S_ .f32 0xFF800000#32) (ix1 R) = (⊥ : EReal) :=
    (broadcastInDim_apply _ _ _ (ix1 R) (fun a => a.elim0) (fun a => a.elim0)).trans Cert.LibLaneMax.ofBits_neg_inf
  unfold rowMaxes
  rw [maximumf_apply, hbc, hfold, max_eq_right bot_le]
  exact isReal_fold_max _ ⟨0, Finset.mem_univ _⟩ _ fun k _ => hx _

/-- The shifted logits at an entry. -/
theorem shifted_apply (x : FVec Ideal S2048x32000 .f32) (R : Fin 2048) (C : Fin 32000) :
    shifted x (ix2 R C) = x (ix2 R C) - rowMaxes x (ix1 R) := by
  unfold shifted
  rw [subf_apply, rows_apply, col_apply]

/-- The log-softmax at an entry. -/
theorem logp_apply (x : FVec Ideal S2048x32000 .f32) (R : Fin 2048) (C : Fin 32000) :
    logp x (ix2 R C) = (x (ix2 R C) - rowMaxes x (ix1 R))
      - Ideal.log (Ideal.ofBits .f32 0x00000000#32 + ∑ k : Fin 32000, Ideal.exp (x (ix2 R k) - rowMaxes x (ix1 R))) := by
  unfold logp
  rw [subf_apply, rows_apply, hostLog_apply, col_apply, rowSum_apply, shifted_apply]
  refine congrArg (fun z => (x (ix2 R C) - rowMaxes x (ix1 R)) - Ideal.log (Ideal.ofBits .f32 0x00000000#32 + z))
    (Finset.sum_congr rfl fun k _ => ?_)
  rw [hostExp_apply, shifted_apply]

/-- THE REFERENCE'S TERM at an entry of real logits: the row's log-sum-exp minus the entry. -/
theorem neg_logp (x : FVec Ideal S2048x32000 .f32) (hx : ∀ i, IsReal (x i)) (xr : ℕ → ℕ → ℝ)
    (hxr : ∀ (R : Fin 2048) (C : Fin 32000), x (ix2 R C) = ((xr R.val C.val : ℝ) : EReal)) (R : Fin 2048) (C : Fin 32000) :
    -(logp x (ix2 R C))
      = ((Real.log (∑ k ∈ Finset.range 32000, Real.exp (xr R.val k)) : ℝ) : EReal) - x (ix2 R C) := by
  obtain ⟨mR, hm⟩ := rowMaxes_real x hx R
  rw [logp_apply, hm, Ideal.ofBits_zero_f32, zero_add, hxr R C,
    Finset.sum_congr rfl fun k _ => by rw [hxr R k], Finset.sum_range fun k => Real.exp (xr R.val k)]
  exact neg_logSoftmax Finset.univ (fun k : Fin 32000 => xr R.val k.val) mR (xr R.val C.val)
    (Finset.sum_pos (fun k _ => Real.exp_pos _) ⟨0, Finset.mem_univ _⟩)

end Cert.ReferenceIdeal.RefValue

end
-- ==== Proof.LibVecGather.lean ====
/-
  A gather of single entries of a vector, read by coordinate, for any extents.

  An `[n]` vector is gathered at `e` start indices laid out as a column `[e, 1]`: every start index names one
  position of the vector, the single entry there (a slice of size 1) is taken, and the result is the `[e]` vector of
  the taken entries. In gather's dimension numbers: there is no offset axis, the operand's one axis is collapsed and
  is the axis the start index addresses, there are no batching axes, the index vector lies along axis 1 of the start
  indices, and the slice sizes are `[1]`. For ANY extents `n`, `e` (with `n` positive) and any index width, entry
  `p` of the result is entry `r` of the operand, where `r` is start index `p` read as a signed integer and clamped
  into `[0, n − 1]` (`rowAt`, `gather_vec_apply`). A program's printed gather record with these lists is
  `vecDims n e _` by `rfl`.
-/
import Idealize.ShloMosaic.PureOps.ShapeOps
import Idealize.ShloMosaic.PureOps.Dims
import Idealize.ShloMosaic.Lib.ValueIdx

namespace Cert.VecGather

open Idealize.ShloMosaic Idealize.ShloMosaic.ValueIdx

variable {α : Type}

/-- The dimension numbers of a gather of single entries: operand `[n]`, start indices `[e, 1]`, result `[e]`.
    Their side conditions `wf` are decided on a program's literal extents. -/
abbrev vecDims (n e : Nat)
    (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- The position that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- The value of the named position: the clamp of the signed start index. -/
theorem rowAt_val {n e w : Nat} (hn : 0 < n) (idx : IVec ⟨2, ![e, 1]⟩ w) (p : Fin e) :
    (rowAt hn idx p).val = min (idx (ix2 p 0)).toInt.toNat (n - 1) := rfl

/-- THE ENTRY GATHER READ AT `p`: the operand's entry at the position that start index `p` names. -/
theorem gather_vec_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecDims n e wf) x idx (ix1 p) = x (ix1 (rowAt hn idx p)) := by
  unfold Host.gather
  congr 1
  funext a
  refine Fin.ext ?_
  match a with
  | ⟨0, _⟩ =>
    show (vecDims n e wf).start (ix1 p) idx 0 + (vecDims n e wf).batchCoord (ix1 p) 0
      + (vecDims n e wf).offCoord (ix1 p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims n e wf).startIndexMap from List.mem_singleton.mpr rfl)]
    have hsi : (vecDims n e wf).siIdx (ix1 p) ⟨List.idxOf (0 : Fin 1) (vecDims n e wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl

end Cert.VecGather
-- ==== Proof.Bridge.lean ====
/-
  The two programs' 16384 terms are the same real numbers.

  Both programs read the logits through ONE gather at the same (row, column) index pairs: entry `p` of either gather
  sits at `J p = (R, C)`, where `R` is the row index `p` (counted from the end when negative) clamped into
  `[0, 2047]`. The kernel's program reads its column of row log-sum-exps through a second gather at the row indices
  alone, whose entry `p` sits at the same clamped `R`. So the kernel's term `p` is `log Σ_k e^(x R k) − x R C`,
  which for real logits is the reference's negated log-softmax at `(R, C)`.
-/
import proofs.«127063_j40424232190041_2_alg».proof.Proof.Tail
import proofs.«127063_j40424232190041_2_alg».proof.Proof.Final
import proofs.«127063_j40424232190041_2_alg».proof.Proof.RefValue
import proofs.«127063_j40424232190041_2_alg».proof.Proof.LibVecGather

noncomputable section

open Idealize.ShloMosaic Idealize.ShloMosaic.TcCoe Idealize.ShloMosaic.ValueIdx Idealize.SL.Sem
open Idealize.ShloMosaic.Pipeline (Dat)

namespace Cert.Bridge

open Cert.KernelIdeal Cert.KernelIdeal.Gen Cert.KernelIdeal.Stream Cert.KernelIdeal.Final Cert.KernelIdeal.Tail
open RealEntries Cert.LogSumExp

/-- The pair gather reads entry `p` in the row its first index names: read signed, clamped into `[0, 2047]`. -/
theorem pair_row (idx : IVec S16384x2 32) (p : Fin 16384) :
    ((gather_S2048x32000_S16384x2_S16384_n_01_n_n_01_1_11.operandIdx (ix1 p) idx) 0).val
      = min (idx (ix2 p (0 : Fin 2))).toInt.toNat 2047 := by
  show gather_S2048x32000_S16384x2_S16384_n_01_n_n_01_1_11.start (ix1 p) idx 0
    + gather_S2048x32000_S16384x2_S16384_n_01_n_n_01_1_11.batchCoord (ix1 p) 0
    + gather_S2048x32000_S16384x2_S16384_n_01_n_n_01_1_11.offCoord (ix1 p) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S2048x32000_S16384x2_S16384_n_01_n_n_01_1_11.startIndexMap from by decide)]
  have hsi : gather_S2048x32000_S16384x2_S16384_n_01_n_n_01_1_11.siIdx (ix1 p)
      ⟨List.idxOf (0 : Fin 2) gather_S2048x32000_S16384x2_S16384_n_01_n_n_01_1_11.startIndexMap,
        List.idxOf_lt_length_iff.2 (by decide)⟩ = ix2 p (0 : Fin 2) := by
    funext b; refine Fin.ext ?_
    match b with
    | ⟨0, _⟩ => rfl
    | ⟨1, _⟩ => rfl
  rw [hsi]
  rfl

/-- Column 0 of the index pairs is the row-index column. -/
theorem pair_col0 (a1 a2 : IVec S16384 32) (p : Fin 16384) :
    pairIdx a1 a2 (ix2 p (0 : Fin 2)) = normIdx 2048#32 a2 (ix2 p (0 : Fin 1)) :=
  concatenate_pair_apply_left (t := S16384x2) (s₁ := S16384x1) (s₂ := S16384x1) (1 : Fin 2) _ _ _ (ix2 p (0 : Fin 2)) rfl
    (ix2 p (0 : Fin 1)) fun b => by
    match b with
    | ⟨0, _⟩ => rfl
    | ⟨1, _⟩ => rfl

/-- A [2048, 1] column reshaped to a vector reads, at `R`, the column's entry in row `R`. -/
theorem vec_of_col {α : Type} (v : S2048x1.Idx → α) (R : Fin 2048) :
    shapeCast S2048 v Gen.shapeCasts_S2048x1_S2048 (ix1 R) = v (ix2 R (0 : Fin 1)) :=
  shapeCast_apply v _ _ _ (by
    rw [Shape.rowMajor_val_two, Shape.rowMajor_val_one]
    show R.val * 1 + 0 = R.val
    omega)

variable (m : (ℓ : Loc nD τ sig) → Buf (Elt Ideal) ℓ)

/-- THE TERMS AGREE: for real logits the kernel's differences are the reference's negated log-softmax entries. -/
theorem terms_eq (c : Dev nD) (hfin : ∀ i, IsReal (X m c i)) (a1 a2 : IVec S16384 32) :
    Tail.terms (lse m c) (X m c) a1 a2 = Cert.ReferenceIdeal.RefValue.terms (X m c) a1 a2 := by
  funext t
  obtain ⟨p, rfl⟩ : ∃ p : Fin 16384, t = ix1 p := ⟨t 0, eq_ix1 t⟩
  have hJ2 := eq_ix2 (gather_S2048x32000_S16384x2_S16384_n_01_n_n_01_1_11.operandIdx (ix1 p) (pairIdx a1 a2))
  have hrow : ((gather_S2048x32000_S16384x2_S16384_n_01_n_n_01_1_11.operandIdx (ix1 p) (pairIdx a1 a2)) 0).val
      = (Cert.VecGather.rowAt (n := 2048) (by decide) (normIdx 2048#32 a2) p).val := by
    rw [Cert.VecGather.rowAt_val, pair_row, pair_col0]
  have hK : Tail.terms (lse m c) (X m c) a1 a2 (ix1 p)
      = ((Real.log (P m c ((gather_S2048x32000_S16384x2_S16384_n_01_n_n_01_1_11.operandIdx (ix1 p)
            (pairIdx a1 a2)) 0).val 32000) : ℝ) : EReal)
        - X m c (gather_S2048x32000_S16384x2_S16384_n_01_n_n_01_1_11.operandIdx (ix1 p) (pairIdx a1 a2)) := by
    show Host.gather gather_S2048_S16384x1_S16384_n_0_n_n_0_1_1
        (fun i => shapeCast S2048 (lse m c) Gen.shapeCasts_S2048x1_S2048 i) (normIdx 2048#32 a2) (ix1 p)
      - X m c (gather_S2048x32000_S16384x2_S16384_n_01_n_n_01_1_11.operandIdx (ix1 p) (pairIdx a1 a2)) = _
    refine congrArg (· - X m c (gather_S2048x32000_S16384x2_S16384_n_01_n_n_01_1_11.operandIdx (ix1 p)
      (pairIdx a1 a2))) ?_
    refine (Cert.VecGather.gather_vec_apply (n := 2048) (e := 16384) (by decide)
      Gen.gather_S2048_S16384x1_S16384_n_0_n_n_0_1_1_wf
      (fun i => shapeCast S2048 (lse m c) Gen.shapeCasts_S2048x1_S2048 i) (normIdx 2048#32 a2) p).trans ?_
    rw [vec_of_col, hrow]
    rfl
  have hR : Cert.ReferenceIdeal.RefValue.terms (X m c) a1 a2 (ix1 p)
      = -(Cert.ReferenceIdeal.RefValue.logp (X m c)
          (gather_S2048x32000_S16384x2_S16384_n_01_n_n_01_1_11.operandIdx (ix1 p) (pairIdx a1 a2))) := rfl
  rw [hK, hR, hJ2]
  exact (Cert.ReferenceIdeal.RefValue.neg_logp (X m c) hfin (xr m c) (fun R C => entry_eq m c hfin R C) _ _).symm

/-- The two programs' last two operations are one function of the terms. -/
theorem total_eq (w : FVec Ideal S16384 .f32) : Tail.total w = Cert.ReferenceIdeal.RefValue.total w := rfl

variable (ρ : Dev nD → PrngReg)

/-- THE KERNEL'S RUN, read: for real logits the result is the tail at the column of row log-sum-exps, and the arguments
    end unchanged. -/
theorem run (hfin : ∀ c i, IsReal (X m c i)) :
    θ_run defs (onTc (τ := τ) (main (F := Ideal))) ⟨m, fun _ => 0, ρ⟩ fun r => ∀ c : Dev nD,
      r.2.mem ((c.tc : Thread nD τ).loc main_v25)
          = Tail.total (Tail.terms (lse m c) (m ((c.tc : Thread nD τ).loc main_arg0))
              (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v25 (Pipeline.mem_restRefs_of main_v25 (by decide) (by decide))).trans
        ((tail_eq m c).trans (by rw [final m c (hfin c)])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Bridge

end
-- ==== Proof.lean ====
/-
  Cross-entropy by a streaming log-sum-exp: the kernel's loss is the reference's.

  The kernel streams the [2048, 32000] logits through a 4 × 5 grid of [512, 6400] blocks, keeping per row a running
  maximum `M` and a running sum `L` with `L · e^M = Σ e^x` over the columns seen so far, and leaves
  `M + log L = log Σ_c e^(x R c)` for every row `R`; on the host it gathers that column at the row indices and the logits
  at the (row, column) index pairs, subtracts, sums and divides by 2048. The reference forms `log_softmax` of the
  whole matrix, gathers it at the same index pairs, negates, sums and divides by 2048. Term by term the two are the
  same real number, `log Σ_k e^(x R k) − x R C`: the kernel's running shift (started at a finite constant) and the
  reference's row maximum both cancel. The cancellations hold for real numbers only, which is where the precondition
  (every logit finite) is used. The ideal pass rewrote nothing, so `preserves` is trivial; the kernel's frames are the
  generated ones, and the reference's frame is its run with the result dropped.
-/
import proofs.«127063_j40424232190041_2_alg».proof.Defs
import proofs.«127063_j40424232190041_2_alg».proof.Proof.Gen.Kernel
import proofs.«127063_j40424232190041_2_alg».proof.Proof.Gen.Kernel.Frame
import proofs.«127063_j40424232190041_2_alg».proof.Proof.Gen.KernelIdeal
import proofs.«127063_j40424232190041_2_alg».proof.Proof.Gen.KernelIdeal.Frame
import proofs.«127063_j40424232190041_2_alg».proof.Proof.Gen.ReferenceIdeal
import proofs.«127063_j40424232190041_2_alg».proof.Proof.Gen.Pre_finite_inputs
import proofs.«127063_j40424232190041_2_alg».proof.Proof.Finite
import proofs.«127063_j40424232190041_2_alg».proof.Proof.Bridge
import Idealize.ShloMosaic.Adequacy
import Idealize.ShloMosaic.Init

noncomputable section

namespace Cert.Proof

open Idealize.ShloMosaic Idealize.SL.Sem RealEntries

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2)
    (Cert.ReferenceIdeal.ValueP.run (F := Ideal) m ρ)

theorem preserves : Cert.preserves_Kernel_KernelIdeal := trivial

/-- At the exact instance, from memories agreeing on the arguments, both programs end with the tail applied to the same
    16384 terms. -/
theorem algebraic : Cert.algebraic_KernelIdeal_ReferenceIdeal := by
  intro m ρ m' ρ' hpre hagree
  have hfin : ∀ c i, IsReal (Cert.KernelIdeal.Stream.X m c i) := fun c i =>
    Cert.FiniteInputs.entries_real _ _ _ (hpre c) i
  refine ⟨_, Cert.Bridge.run m ρ hfin, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact ((Cert.Bridge.total_eq _).trans
    (congrArg Cert.ReferenceIdeal.RefValue.total (Cert.Bridge.terms_eq m c (hfin c) _ _))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
